-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel

variable [Facts]

def fn {F : FTy → Type} [FloatOps F] (main_arg0 : FVec F S8192x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  main_v3
-- ==== Kernel.lean ====
abbrev S8192x4096 : Shape := ⟨2, ![8192, 4096]⟩
abbrev S8x1x128 : Shape := ⟨3, ![8, 1, 128]⟩
abbrev S1024x4096 : Shape := ⟨2, ![1024, 4096]⟩
abbrev S1x1x128 : Shape := ⟨3, ![1, 1, 128]⟩
abbrev S1024 : Shape := ⟨1, ![1024]⟩
abbrev S1024x1 : Shape := ⟨2, ![1024, 1]⟩
abbrev S1x1024x1 : Shape := ⟨3, ![1, 1024, 1]⟩
abbrev S1 : Shape := ⟨1, ![1]⟩
abbrev S1x1x1 : Shape := ⟨3, ![1, 1, 1]⟩
abbrev S8x1x1 : Shape := ⟨3, ![8, 1, 1]⟩
abbrev S8 : Shape := ⟨1, ![8]⟩
abbrev S_ : Shape := ⟨0, ![]⟩

abbrev nBuf : Space → Nat
  | .hbm => 10
  | .vmem => 4
  | .smem => 0
  | _ => 0

abbrev bufTy : (tb : Table) → Fin (tcTables nBuf tb) → BufTy
  | .hbm, ⟨0, _⟩ => ⟨S8192x4096, .f32⟩
  | .hbm, ⟨1, _⟩ => ⟨S8x1x128, .f32⟩
  | .hbm, ⟨2, _⟩ => ⟨S8x1x1, .f32⟩
  | .hbm, ⟨3, _⟩ => ⟨S8, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S1024x4096, .f32⟩
  | .local _ .vmem, ⟨1, _⟩ => ⟨S1024x4096, .f32⟩
  | .local _ .vmem, ⟨2, _⟩ => ⟨S1x1x128, .f32⟩
  | .local _ .vmem, ⟨3, _⟩ => ⟨S1x1x128, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S1024x4096_S1024x4096_0_0 : ∀ a, (![0, 0] : Fin 2 → Nat) a + S1024x4096.size a ≤ S1024x4096.size a
  h_S1024x4096 : 0 < S1024x4096.numel
  reduces_S1024x4096_S1024 : S1024x4096.Reduces [1] S1024
  shapeCasts_S1024_S1024x1 : S1024.ShapeCasts S1024x1
  shapeCasts_S1024x1_S1x1024x1 : S1024x1.ShapeCasts S1x1024x1
  reduces_S1x1024x1_S1 : S1x1024x1.Reduces [1, 2] S1
  shapeCasts_S1_S1x1x1 : S1.ShapeCasts S1x1x1
  inpos_S1x1x1_p0_0_0 : ∀ a, (![0, 0, 0] : Fin 3 → Nat) a < S1x1x1.size a
  inb_S1x1x128_S1x1x128_0_0_0 : ∀ a, (![0, 0, 0] : Fin 3 → Nat) a + S1x1x128.size a ≤ S1x1x128.size a
  h_S1x1x128 : 0 < S1x1x128.numel
  slices_S8x1x128_S8x1x1_0_0_0 : S8x1x128.Slices ![0, 0, 0] S8x1x1
  shapeCasts_S8x1x1_S8 : S8x1x1.ShapeCasts S8
  reducesTo_S8_S_d0 : S8.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S8192x4096.size a
  hwx0_0 : ∀ i : grid0.Coords, EltTy.bits .f32 = 32 ∨ (Rect.block (s := S8192x4096) S1024x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x128.size a ≤ S8x1x128.size a
  hwx0_1 : ∀ i : grid0.Coords, EltTy.bits .f32 = 32 ∨ (Rect.block (s := S8x1x128) S1x1x128.size (cc0_transform_1 i) (hinb0_1 i)).WholeWords (EltTy.packing .f32)

variable [Facts₀]

abbrev win0_0 : Pipeline.Window sig grid0 :=
  Pipeline.Window.ofSpec (Memref.whole main_arg0) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S_ : Shape := ⟨0, ![]⟩
abbrev S8192 : Shape := ⟨1, ![8192]⟩

abbrev nBuf : Space → Nat
  | .hbm => 14
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S_, .f32⟩
  | .hbm, ⟨3, _⟩ => ⟨S8192, .f32⟩
  | .hbm, ⟨4, _⟩ => ⟨S_, .f32⟩
  | .hbm, ⟨5, _⟩ => ⟨S8192, .f32⟩
  | .hbm, ⟨6, _⟩ => ⟨S8192, .f32⟩
  | .hbm, ⟨7, _⟩ => ⟨S8192, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_cst_2 : Ref sig .tc := ⟨.hbm, 10, rfl⟩
abbrev main_v6 : Ref sig .tc := ⟨.hbm, 11, rfl⟩
abbrev main_cst_3 : Ref sig .tc := ⟨.hbm, 12, rfl⟩
abbrev main_v7 : Ref sig .tc := ⟨.hbm, 13, rfl⟩

abbrev nD : Nat := 1
abbrev τ : Topo := Topo.v7x

variable {F : FTy → Type} [FloatOps F]

class Facts₀ : Prop where
  reducesTo_S8192x4096_S8192_d1 : S8192x4096.ReducesTo [1] S8192
  h_S_ : 0 < S_.numel
  bcast_S_S8192 : S_.BroadcastsInDim S8192 (![] : Fin 0 → Fin S8192.rank)
  reducesTo_S8192_S_d0 : S8192.ReducesTo [0] S_

variable [Facts₀]

class Facts : Prop extends Facts₀ where

variable [Facts]
-- ==== Proof.Spec.lean ====
/-
  The quantity both programs compute, as ONE function of the argument array z : [8192, 4096] over the extended reals:

      loss z = (-1/2) · ( (∑ r, log (1 + λ · ∑ k, z[r,k]²)) / 8192 )

  with λ, 8192 and -1/2 the extended reals their f32 words denote (the same three words in both programs, so they are
  never evaluated). The kernel reaches the sum over the 8192 rows in eight tiles of 1024 consecutive rows: `sum_tiles`
  regroups it, which needs only that + is commutative and associative on the extended reals — no finiteness.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- The scale λ = D · B · ε as the f32 word both programs carry. -/
abbrev lam : EReal := Ideal.ofBits .f32 0x4703126F#32
/-- The number of rows, 8192, as its f32 word. -/
abbrev rowCount : EReal := Ideal.ofBits .f32 0x46000000#32
/-- The factor -1/2 as its f32 word. -/
abbrev negHalf : EReal := Ideal.ofBits .f32 0xBF000000#32

/-- Row `r`'s term: log (1 + λ · ‖z_r‖²), the squared norm the sum of the row's 4096 squares. -/
def rowTerm (z : (⟨2, ![8192, 4096]⟩ : Shape).Idx → EReal) (r : Fin 8192) : EReal :=
  Ideal.log1p (lam * ∑ k : Fin 4096, z (ix2 r k) * z (ix2 r k))

/-- The loss: -1/2 times the mean of the rows' terms. -/
def loss (z : (⟨2, ![8192, 4096]⟩ : Shape).Idx → EReal) : EReal :=
  negHalf * Ideal.div (∑ r : Fin 8192, rowTerm z r) rowCount

/-- Row `q` of tile `j`: row 1024·j + q of the array. -/
def tileRow (j : Fin 8) (q : Fin 1024) : Fin 8192 :=
  ⟨1024 * j.val + q.val, by have := j.isLt; have := q.isLt; omega⟩

/-- The 8192 rows are the 8 × 1024 pairs (tile, row in the tile). -/
def tileEquiv : Fin 8 × Fin 1024 ≃ Fin 8192 where
  toFun p := tileRow p.1 p.2
  invFun r := (⟨r.val / 1024, by have := r.isLt; omega⟩, ⟨r.val % 1024, by omega⟩)
  left_inv := fun ⟨j, q⟩ => Prod.ext
    (Fin.ext (by have := q.isLt; show (1024 * j.val + q.val) / 1024 = j.val; omega))
    (Fin.ext (by have := q.isLt; show (1024 * j.val + q.val) % 1024 = q.val; omega))
  right_inv := fun r => Fin.ext (by show 1024 * (r.val / 1024) + r.val % 1024 = r.val; omega)

/-- A sum over the rows is the sum over the tiles of the sums over each tile's rows. -/
theorem sum_tiles {M : Type*} [AddCommMonoid M] (g : Fin 8192 → M) :
    ∑ j : Fin 8, ∑ q : Fin 1024, g (tileRow j q) = ∑ r : Fin 8192, g r :=
  (Fintype.sum_prod_type' (fun j q => g (tileRow j q))).symm.trans
    (Fintype.sum_equiv tileEquiv _ _ (fun _ => rfl))

/-- A rank-1 index set is its coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) :=
  (Equiv.sum_comp (idxEquiv1 (n := n)).symm f).symm

/-- An index set of shape [1, n, 1] is its middle coordinate's range (the outer two coordinates can only be 0) … -/
def idxEquiv1n1 {n : Nat} : (⟨3, ![1, n, 1]⟩ : Shape).Idx ≃ Fin n where
  toFun i := i 1
  invFun q := ix3 (0 : Fin 1) q (0 : Fin 1)
  left_inv i := by
    funext d
    match d with
    | ⟨0, _⟩ => exact Fin.ext (by have h : (i 0).val < 1 := (i 0).isLt; show 0 = (i 0).val; omega)
    | ⟨1, _⟩ => rfl
    | ⟨2, _⟩ => exact Fin.ext (by have h : (i 2).val < 1 := (i 2).isLt; show 0 = (i 2).val; omega)
  right_inv _ := rfl

/-- … so a sum over it is the sum over the middle coordinate. -/
theorem sum_idx1n1 {M : Type*} [AddCommMonoid M] {n : Nat} (f : (⟨3, ![1, n, 1]⟩ : Shape).Idx → M) :
    ∑ i, f i = ∑ q : Fin n, f (ix3 (0 : Fin 1) q (0 : Fin 1)) :=
  (Equiv.sum_comp (idxEquiv1n1 (n := n)).symm f).symm

/-- What tile `j` contributes: the sum of its 1024 rows' terms. -/
def tileSum (z : (⟨2, ![8192, 4096]⟩ : Shape).Idx → EReal) (j : Fin 8) : EReal :=
  ∑ q : Fin 1024, rowTerm z (tileRow j q)

/-- The loss from the eight tile sums. -/
theorem loss_eq_tiles (z : (⟨2, ![8192, 4096]⟩ : Shape).Idx → EReal) :
    negHalf * Ideal.div (∑ j : Fin 8, tileSum z j) rowCount = loss z := by
  unfold loss tileSum
  rw [sum_tiles (fun r => rowTerm z r)]

end Cert.Spec

end
-- ==== Proof.RefLoss.lean ====
/-
  The reference program's result, read one operation at a time, is `loss` of its argument: the row sums of squares
  (0 + ∑ over the 4096 columns), times λ, log (1 + ·), summed over the 8192 rows (0 + ∑), divided by 8192, times -1/2.
  The two leading zeros are the extended real 0 and drop out.
-/
import proofs.«141497_j20658792694159_2_alg».proof.Proof.Gen.ReferenceIdeal.Read
import proofs.«141497_j20658792694159_2_alg».proof.Proof.Spec

noncomputable section

open scoped BigOperators

namespace Cert.ReferenceIdeal.RefValue

open Cert.ReferenceIdeal Cert.ReferenceIdeal.Read Idealize.ShloMosaic Idealize.ShloMosaic.ValueIdx

/-- The column index the reference's row sum reads at row `r`, column `k`, is (r, k). -/
theorem idx_row (r : Fin 8192) (k : Fin 4096) : idx_main_v1 (ix1 r) k = ix2 r k :=
  funext fun a => Fin.ext (by match a with | ⟨0, _⟩ => rfl | ⟨1, _⟩ => rfl)

/-- The reference's per-row value log (1 + λ · (0 + ∑ₖ z[r,k]²)) is row `r`'s term. -/
theorem row_eq (z : S8192x4096.Idx → EReal) (r : Fin 8192) :
    val_main_v4 (F := Ideal) z (ix1 r) = Cert.Spec.rowTerm z r := by
  rw [val_main_v4_apply, val_main_v3_apply, val_main_v2_apply, val_main_cst_0_apply, val_main_v1_apply, val_main_cst_apply]
  simp only [val_main_v0_apply, idx_row, Ideal.hostUnary_log1p_def, Ideal.mulf_def, Ideal.ofBits_def, Ideal.ofBits_zero_f32,
    zero_add]
  rfl

/-- The reference's result is the loss. -/
theorem result_eq (z : S8192x4096.Idx → EReal) (i : S_.Idx) :
    val_main_v7 (F := Ideal) z i = Cert.Spec.loss z := by
  rw [val_main_v7_apply, val_main_v6_apply, val_main_v5_apply, val_main_cst_3_apply, val_main_cst_2_apply, val_main_cst_1_apply,
    Cert.Spec.sum_idx1]
  simp only [row_eq, Ideal.mulf_def, Ideal.hostDivf_def, Ideal.ofBits_def, Ideal.ofBits_zero_f32, zero_add]
  rfl

end Cert.ReferenceIdeal.RefValue

end
-- ==== Proof.TileSum.lean ====
/-
  What the kernel body writes at one grid point, read at an index: every lane of the [1, 1, 128] output block holds the
  TILE'S TOTAL — the sum over the block's 1024 rows of log (1 + λ · ∑ₖ x[q,k]²), x the point's [1024, 4096] input block.
  The body gets there through a lane sum over the columns, two keepdims casts, a sum over the two non-unit axes of a
  [1, 1024, 1] vector into a one-entry vector, and a broadcast of that entry; each is read at an index here.
-/
import proofs.«141497_j20658792694159_2_alg».proof.Proof.Gen.KernelIdeal.Skeleton
import proofs.«141497_j20658792694159_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.TileValue

open Cert.KernelIdeal Cert.KernelIdeal.Gen Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A one-entry array cast to `[1, 1, 1]` reads that entry at its one index. -/
theorem shapeCast_1_111_apply (x : (⟨1, ![1]⟩ : Shape).Idx → α) (h : (⟨1, ![1]⟩ : Shape).ShapeCasts ⟨3, ![1, 1, 1]⟩)
    (j : (⟨3, ![1, 1, 1]⟩ : Shape).Idx) : shapeCast ⟨3, ![1, 1, 1]⟩ x h j = x (ix1 (0 : Fin 1)) :=
  shapeCast_apply x h _ _ (by
    have h0 : (j 0).val < 1 := (j 0).isLt
    have h1 : (j 1).val < 1 := (j 1).isLt
    have h2 : (j 2).val < 1 := (j 2).isLt
    rw [Shape.rowMajor_val_three, Shape.rowMajor_val_one]
    show (0 : Nat) = ((j 0).val * 1 + (j 1).val) * 1 + (j 2).val
    omega)

/-- Row `q` of a [1024, 4096] block contributes log (1 + λ · ∑ₖ x[q,k]²). -/
def blockRow (x0 : S1024x4096.Idx → EReal) (q : Fin 1024) : EReal :=
  Ideal.log1p (Cert.Spec.lam * ∑ k : Fin 4096, x0 (ix2 q k) * x0 (ix2 q k))

/-- The body's chain of operations from the loaded block to the scalar it broadcasts is the sum of the block's 1024
    row terms (the shape facts and the reduction's side conditions are whatever the printed body carries). -/
theorem tile_total (x0 : FVec Ideal S1024x4096 .f32)
    (h1 : S1024x4096.Reduces [1] S1024) (c1 : S1024.ShapeCasts S1024x1) (c2 : S1024x1.ShapeCasts S1x1024x1)
    (h2 : S1x1024x1.Reduces [1, 2] S1) (c3 : S1.ShapeCasts S1x1x1)
    (hp : ∀ a, (![0, 0, 0] : Fin 3 → Nat) a < S1x1x1.size a)
    (hφ : FKind.Formats .f32) (ha : (0#32 : BitVec 32) = FKind.add.neutral .f32 hφ) :
    extractAt ![0, 0, 0]
        (shapeCast S1x1x1
          (multiReduction .add [1, 2] S1
            (shapeCast S1x1024x1
              (log1p (mulf (broadcast S1024x1 (FloatOps.ofBits (F := Ideal) .f32 0x4703126F#32))
                (shapeCast S1024x1 (multiReduction .add [1] S1024 (mulf x0 x0) 0#32 h1 hφ ha) c1)))
              c2)
            0#32 h2 hφ ha)
          c3)
        hp
      = ∑ q : Fin 1024, blockRow x0 q := by
  -- the lane sum at row q is the sum of the row's squares
  have hrow : ∀ q : Fin 1024, multiReduction .add [1] S1024 (mulf x0 x0) 0#32 h1 hφ ha (ix1 q)
      = ∑ k : Fin 4096, x0 (ix2 q k) * x0 (ix2 q k) := fun q =>
    (Ideal.multiReduction_add_single (mulf x0 x0) 0#32 h1 hφ ha (ix1 q)).trans
      (Finset.sum_congr rfl fun k _ => congrArg (mulf x0 x0)
        (funext fun a => Fin.ext (by match a with | ⟨0, _⟩ => rfl | ⟨1, _⟩ => rfl)))
  -- so the column of logarithms at (q, 0) is row q's term
  have hterm : ∀ q : Fin 1024,
      log1p (mulf (broadcast S1024x1 (FloatOps.ofBits (F := Ideal) .f32 0x4703126F#32))
        (shapeCast S1024x1 (multiReduction .add [1] S1024 (mulf x0 x0) 0#32 h1 hφ ha) c1)) (ix2 q (0 : Fin 1))
      = blockRow x0 q := fun q => by
    show Ideal.log1p (Ideal.ofBits .f32 0x4703126F#32
      * shapeCast S1024x1 (multiReduction .add [1] S1024 (mulf x0 x0) 0#32 h1 hφ ha) c1 (ix2 q (0 : Fin 1))) = _
    rw [shapeCast_a_a1_apply, hrow]
    rfl
  unfold extractAt
  refine (shapeCast_1_111_apply _ c3 _).trans ?_
  refine (Ideal.multiReduction_add_total _ 0#32 h2 (fun b => by match b with | ⟨0, _⟩ => rfl) hφ ha (ix1 (0 : Fin 1))).trans ?_
  rw [Cert.Spec.sum_idx1n1]
  refine Finset.sum_congr rfl fun q _ => ?_
  rw [shapeCast_ab_1ab_apply]
  exact hterm q

/-- THE PAYLOAD AT AN INDEX: every entry of the block the body stores is the tile's total. -/
theorem pay_apply (x0 : Vec Ideal S1024x4096 .f32) (y : S1x1x128.Idx) :
    k0_pay1 (F := Ideal) x0 y = ∑ q : Fin 1024, blockRow x0 q := by
  unfold k0_pay1
  dsimp only
  exact tile_total x0 _ _ _ _ _ _ _ _

end Cert.KernelIdeal.TileValue

end
-- ==== Proof.Partials.lean ====
/-
  From blocks to the array. Grid point t reads rows 1024·t … 1024·t + 1023 of z (all 4096 columns) and writes block
  (t, 0, 0) of the [8, 1, 128] output, every lane of it the tile's total. The eight output blocks tile the output array,
  so after the run entry (j, 0, l) of the output array is tile j's sum of row terms, for every lane l.
-/
import proofs.«141497_j20658792694159_2_alg».proof.Proof.Gen.KernelIdeal.Frame
import proofs.«141497_j20658792694159_2_alg».proof.Proof.TileSum
import Idealize.ShloMosaic.Lib.Pipeline.Value

noncomputable section

open scoped BigOperators

namespace Cert.KernelIdeal.TileValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zero_off2 : (![0, 0] : Fin 2 → Nat) = fun _ => 0 := funext fun a => by fin_cases a <;> rfl
theorem zero_off3 : (![0, 0, 0] : Fin 3 → Nat) = fun _ => 0 := funext fun a => by fin_cases a <;> rfl

/-- The output array the kernel leaves: entry (j, 0, l) is tile j's sum of row terms of `z`. -/
def partials (z : S8192x4096.Idx → EReal) : S8x1x128.Idx → EReal :=
  fun i => Cert.Spec.tileSum z ⟨(i 0).val, (i 0).isLt⟩

/-- The printed index maps over the grid: point t's input block is block (t, 0) and its output block is block (t, 0, 0). -/
theorem block_index : ∀ t : Fin cfg0.N, win0_0.index t (0 : Fin 2) = t.val ∧ win0_0.index t (1 : Fin 2) = 0
    ∧ win0_1.index t (0 : Fin 3) = t.val ∧ win0_1.index t (1 : Fin 3) = 0 ∧ win0_1.index t (2 : Fin 3) = 0 :=
  (by decide +kernel : ∀ t : Fin grid0.N, _)

/-- Entry (q, k) of point t's input block is entry (1024·t + q, k) of z. -/
theorem iblk_apply (c : Dev nD) (t : Fin cfg0.N) (j : Fin 8) (hj : j.val = t.val) (q : Fin 1024) (k : Fin 4096) :
    iblk m c 0 t (ix2 q k) = m ((c : Thread nD τ).loc main_arg0) (ix2 (Cert.Spec.tileRow j q) k) := by
  obtain ⟨e0, e1, -⟩ := block_index t
  unfold iblk
  rw [View.read_apply]
  show V m c main_arg0 _ = _
  refine congrArg (m ((c : Thread nD τ).loc main_arg0)) ?_
  funext a
  apply Fin.ext
  match a with
  | ⟨0, _⟩ => show win0_0.index t (0 : Fin 2) * 1024 + 1 * q.val = 1024 * j.val + q.val; rw [e0, hj]; omega
  | ⟨1, _⟩ => show win0_0.index t (1 : Fin 2) * 4096 + 1 * k.val = k.val; rw [e1]; omega

/-- So row q of point t's input block contributes row 1024·t + q's term of z. -/
theorem blockRow_iblk (c : Dev nD) (t : Fin cfg0.N) (j : Fin 8) (hj : j.val = t.val) (q : Fin 1024) :
    blockRow (iblk m c 0 t) q = Cert.Spec.rowTerm (m ((c : Thread nD τ).loc main_arg0)) (Cert.Spec.tileRow j q) := by
  unfold blockRow Cert.Spec.rowTerm
  refine congrArg (fun s => Ideal.log1p (Cert.Spec.lam * s)) (Finset.sum_congr rfl fun k _ => ?_)
  rw [iblk_apply m c t j hj q k]

/-- WHAT POINT t WRITES BACK is block t of `partials` of the argument array. -/
theorem flushed_eq (c : Dev nD) (t : Fin cfg0.N) :
    (dats m 0 c).flushed 1 t
      = ((cfg0.win 1).blk t).view.read (Elt Ideal) (partials (m ((c : Thread nD τ).loc main_arg0))) := by
  show (cfg0.win 1).cut (grid0.coords t) ((dats m 0 c).after 1 t) = _
  rw [after0_1]
  unfold out0_1
  rw [View.canon_unit_zero zero_off3]
  simp only [View.ld_unit_zero (S := S1024x4096) zero_off2]
  obtain ⟨-, -, e2, -, -⟩ := block_index t
  funext y
  show k0_pay1 (iblk m c 0 t) y = partials (m ((c : Thread nD τ).loc main_arg0)) (((cfg0.win 1).blk t).view.emb y)
  refine (pay_apply (iblk m c 0 t) y).trans ?_
  have hj : ((((cfg0.win 1).blk t).view.emb y) 0).val = t.val := by
    show win0_1.index t (0 : Fin 3) * 1 + 1 * (y 0).val = t.val
    have hy : (y 0).val < 1 := (y 0).isLt
    rw [e2]; omega
  show _ = ∑ q : Fin 1024, Cert.Spec.rowTerm (m ((c : Thread nD τ).loc main_arg0))
    (Cert.Spec.tileRow ⟨((((cfg0.win 1).blk t).view.emb y) 0).val, ((((cfg0.win 1).blk t).view.emb y) 0).isLt⟩ q)
  exact Finset.sum_congr rfl fun q _ => blockRow_iblk m c t _ hj q

/-- An index of the output array is in point t's block iff each coordinate is in the block's range on its axis. -/
theorem mem_blk (t : Fin cfg0.N) (i : S8x1x128.Idx) :
    i ∈ ((cfg0.win 1).blk t).view.set ↔ ∀ a : Fin 3, win0_1.index t a * S1x1x128.size a ≤ (i a).val
      ∧ (i a).val < win0_1.index t a * S1x1x128.size a + S1x1x128.size a := by
  show i ∈ ((View.whole main_v0).slice (win0_1.rect t)).set ↔ _
  rw [View.set_slice_whole, Rect.mem_set_unit]
  exact Iff.rfl

/-- Every entry (j, 0, l) of the output array is in the block point j writes back. -/
theorem covered (i : S8x1x128.Idx) :
    ∃ t : Fin cfg0.N, (cfg0.win 1).flush t = true ∧ i ∈ ((cfg0.win 1).blk t).view.set := by
  have hN : cfg0.N = 8 := N_0
  have h0 : (i 0).val < 8 := (i 0).isLt
  have h1 : (i 1).val < 1 := (i 1).isLt
  have h2 : (i 2).val < 128 := (i 2).isLt
  obtain ⟨t, ht⟩ : ∃ t : Fin cfg0.N, t.val = (i 0).val := ⟨⟨(i 0).val, by omega⟩, rfl⟩
  obtain ⟨-, -, e2, e3, e4⟩ := block_index t
  refine ⟨t, flush0_1 t, ?_⟩
  rw [mem_blk]
  intro a
  match a with
  | ⟨0, _⟩ => show win0_1.index t (0 : Fin 3) * 1 ≤ (i 0).val ∧ (i 0).val < win0_1.index t (0 : Fin 3) * 1 + 1; omega
  | ⟨1, _⟩ => show win0_1.index t (1 : Fin 3) * 1 ≤ (i 1).val ∧ (i 1).val < win0_1.index t (1 : Fin 3) * 1 + 1; omega
  | ⟨2, _⟩ => show win0_1.index t (2 : Fin 3) * 128 ≤ (i 2).val ∧ (i 2).val < win0_1.index t (2 : Fin 3) * 128 + 128; omega

/-- THE OUTPUT ARRAY after the run: the eight tile sums, each across its 128 lanes. -/
theorem final_partials (c : Dev nD) :
    (dats m 0 c).arrAt 1 cfg0.N = partials (m ((c : Thread nD τ).loc main_arg0)) :=
  (dats m 0 c).arrAt_eq_of_cover 1 (partials (m ((c : Thread nD τ).loc main_arg0)))
    (fun t _ => flushed_eq m c t) covered

end Cert.KernelIdeal.TileValue

end
-- ==== Proof.KernelLoss.lean ====
/-
  The kernel program's result. After the region the host takes lane 0 of each of the eight output blocks, sums the eight
  numbers (0 + ∑), divides by 8192 and multiplies by -1/2. With the output array at the eight tile sums this is
  (-1/2) · ((∑ over tiles of the tile sums) / 8192), which is the loss once the row sum is regrouped by tiles.
-/
import proofs.«141497_j20658792694159_2_alg».proof.Proof.Partials
import Idealize.ShloMosaic.Lib.StableHlo.Run
import Idealize.ShloMosaic.Lib.Pipeline.FrameSuffix

noncomputable section

open scoped BigOperators

namespace Cert.KernelIdeal.TileValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The host operations after the region, as one function of the region's output array. -/
def hostTail (o : S8x1x128.Idx → EReal) : S_.Idx → EReal :=
  mulf (constant (F := Ideal) S_ .f32 0xBF000000#32)
    (Host.divf (F := Ideal)
      (Host.reduceAdd (F := Ideal)
        (shapeCast S8 (extractStridedSlice S8x1x1 ![0, 0, 0] o slices_S8x1x128_S8x1x1_0_0_0) shapeCasts_S8x1x1_S8)
        (constant (F := Ideal) S_ .f32 0x00000000#32) reducesTo_S8_S_d0 h_S_)
      (constant (F := Ideal) S_ .f32 0x46000000#32))

/-- The host's sum of an eight-entry array into a scalar is the initial value plus the eight entries. -/
theorem reduce8 (X : FVec Ideal S8 .f32) (init : FVec Ideal S_ .f32) (h : S8.ReducesTo [0] S_) (hS : 0 < S_.numel)
    (i : S_.Idx) :
    Host.reduceAdd (F := Ideal) X init h hS i = init (Shape.Idx.first hS) + ∑ a : Fin 8, X (ix1 a) := by
  simp only [Host.reduceAdd, Ideal.hostReduceAdd_def]
  refine (Ideal.hostReduceAdd_total h (fun b => b.elim0) X _ i).trans ?_
  rw [Cert.Spec.sum_idx1]

/-- Lane 0 of block a, as the host's slice and reshape read it: entry (a, 0, 0) of the output array. -/
theorem lane0_apply (o : S8x1x128.Idx → EReal) (hs : S8x1x128.Slices ![0, 0, 0] S8x1x1) (hc : S8x1x1.ShapeCasts S8)
    (a : Fin 8) :
    shapeCast S8 (extractStridedSlice S8x1x1 ![0, 0, 0] o hs) hc (ix1 a) = o (ix3 a (0 : Fin 1) (0 : Fin 128)) := by
  rw [shapeCast_apply _ hc (ix1 a) (ix3 a (0 : Fin 1) (0 : Fin 1)) (by
    rw [Shape.rowMajor_val_three, Shape.rowMajor_val_one]
    show (a.val * 1 + 0) * 1 + 0 = a.val
    omega)]
  exact extractStridedSlice_apply _ o hs _ (ix3 a (0 : Fin 1) (0 : Fin 128)) (fun d => by
    match d with
    | ⟨0, _⟩ => exact (Nat.zero_add _).symm
    | ⟨1, _⟩ => rfl
    | ⟨2, _⟩ => rfl)

/-- The tail of the eight tile sums is the loss. -/
theorem hostTail_partials (z : S8192x4096.Idx → EReal) (i : S_.Idx) : hostTail (partials z) i = Cert.Spec.loss z := by
  unfold hostTail
  show Ideal.ofBits .f32 0xBF000000#32
    * Ideal.div (Host.reduceAdd (F := Ideal) _ _ reducesTo_S8_S_d0 h_S_ i) (Ideal.ofBits .f32 0x46000000#32) = _
  rw [reduce8]
  simp only [lane0_apply]
  show Cert.Spec.negHalf * Ideal.div (Ideal.ofBits .f32 0x00000000#32 + ∑ a : Fin 8, Cert.Spec.tileSum z a) Cert.Spec.rowCount = _
  rw [Ideal.ofBits_zero_f32, zero_add]
  exact Cert.Spec.loss_eq_tiles z

/-- What the run leaves in the result buffer is the tail of the output array the region left. -/
theorem tail_term (c : Dev nD) :
    Pipeline.afterTail₀ cfgs (dats m) 0 (V0 m) [hostOps1] c main_v5 = hostTail ((dats m 0 c).arrAt 1 cfg0.N) := by
  unfold Pipeline.afterTail₀
  simp only [List.flatten_cons, List.flatten_nil, List.append_nil]
  after_results
  rw [show Pipeline.withArrays (cfgs 0).spec c (V0 m c) (fun w => (dats m 0 c).arrAt w (cfgs 0).N) (Proc.devRef .tc main_v0)
      = (dats m 0 c).arrAt 1 cfg0.N from Pipeline.withArrays_arr spec0 launch0.win.arr_inj c _ _ 1]
  rfl

/-- So the result buffer ends at the loss of the argument array. -/
theorem result_eq (c : Dev nD) :
    Pipeline.afterTail₀ cfgs (dats m) 0 (V0 m) [hostOps1] c main_v5
      = fun _ => Cert.Spec.loss (m ((c : Thread nD τ).loc main_arg0)) := by
  rw [tail_term, final_partials]
  exact funext fun i => hostTail_partials _ i

/-- The kernel program's run, read: the result at the loss of the argument array, the argument unchanged. -/
theorem run : θ_run defs (onTc (τ := τ) (main (F := Ideal))) ⟨m, fun _ => 0, ρ⟩ fun r => ∀ c : Dev nD,
      r.2.mem ((c : Thread nD τ).loc main_v5) = (fun _ => Cert.Spec.loss (m ((c : Thread nD τ).loc main_arg0)))
      ∧ r.2.mem ((c : Thread nD τ).loc main_arg0) = m ((c : Thread nD τ).loc main_arg0) :=
  (θ_run defs _ _).mono (fun r h c =>
      ⟨((h c).2 main_v5 (Pipeline.mem_restRefs_of main_v5 rfl (by decide))).trans (result_eq m c),
        ((h c).1 0).trans (((dats m 0 c).arrAt_in 0 rfl _).trans ((A_eq m c 0).trans (V_main_arg0 m c)))⟩)
    (run_main m ρ)

end Cert.KernelIdeal.TileValue

end
-- ==== Proof.lean ====
/-
  The kernel and its reference both compute, of z : f32[8192, 4096],

      loss z = (-1/2) · ( (∑ over rows r of log (1 + λ · ‖z_r‖²)) / 8192 ),     ‖z_r‖² = ∑ₖ z[r,k]²,

  and over the extended reals they are equal. The kernel walks a grid of eight points; point t loads rows
  1024·t … 1024·t + 1023, forms each row's log (1 + λ · ‖z_r‖²), sums the 1024 of them and writes that total across the
  128 lanes of output block t; the host then adds lane 0 of the eight blocks, divides by 8192 and multiplies by -1/2.
  The reference sums all 8192 row terms at once. The two differ only in how one finite sum is grouped (8 × 1024 against
  8192), and + on the extended reals is commutative and associative, so no finiteness of the input is used. The constants
  λ, 8192 and -1/2 are the same f32 words in both programs; the zero each sum starts from is the extended real 0.

  Modules: Spec (the loss as one function, the regrouping law), RefLoss (the reference's result is the loss),
  TileSum (the kernel body's stored block, entry by entry, is its tile's total), Partials (the output array after the
  run holds the eight tile totals), KernelLoss (the host operations after the region turn them into the loss; the run).
  The three frames are the generated ones (the reference's is its generated run with the result dropped); the ideal pass
  rewrote nothing, so there is nothing to preserve.
-/
import proofs.«141497_j20658792694159_2_alg».proof.Defs
import proofs.«141497_j20658792694159_2_alg».proof.Proof.Gen.Kernel
import proofs.«141497_j20658792694159_2_alg».proof.Proof.Gen.Kernel.Skeleton
import proofs.«141497_j20658792694159_2_alg».proof.Proof.Gen.Kernel.Launch
import proofs.«141497_j20658792694159_2_alg».proof.Proof.Gen.Kernel.Points
import proofs.«141497_j20658792694159_2_alg».proof.Proof.Gen.Kernel.Frame
import proofs.«141497_j20658792694159_2_alg».proof.Proof.Gen.KernelIdeal
import proofs.«141497_j20658792694159_2_alg».proof.Proof.Gen.KernelIdeal.Skeleton
import proofs.«141497_j20658792694159_2_alg».proof.Proof.Gen.KernelIdeal.Launch
import proofs.«141497_j20658792694159_2_alg».proof.Proof.Gen.KernelIdeal.Points
import proofs.«141497_j20658792694159_2_alg».proof.Proof.Gen.KernelIdeal.Frame
import proofs.«141497_j20658792694159_2_alg».proof.Proof.Gen.ReferenceIdeal
import proofs.«141497_j20658792694159_2_alg».proof.Proof.Gen.ReferenceIdeal.Run
import proofs.«141497_j20658792694159_2_alg».proof.Proof.Gen.ReferenceIdeal.Read
import proofs.«141497_j20658792694159_2_alg».proof.Proof.Gen.Pre_finite_inputs
import proofs.«141497_j20658792694159_2_alg».proof.Proof.Spec
import proofs.«141497_j20658792694159_2_alg».proof.Proof.RefLoss
import proofs.«141497_j20658792694159_2_alg».proof.Proof.KernelLoss
import Idealize.ShloMosaic.Adequacy
import Idealize.ShloMosaic.Init

noncomputable section

namespace Cert.Proof

open Idealize.ShloMosaic Idealize.SL.Sem

/-- At the ideal instance both programs, run from memories that agree on z, end with the loss of z in their result. -/
theorem algebraic : Cert.algebraic_KernelIdeal_ReferenceIdeal := by
  intro m ρ m' ρ' _ hagree
  refine ⟨fun c => fun _ => Cert.Spec.loss (m ((c.tc : Thread Cert.KernelIdeal.nD Cert.KernelIdeal.τ).loc Cert.KernelIdeal.main_arg0)),
    Cert.KernelIdeal.TileValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, hagree c]
  exact funext fun i => Cert.ReferenceIdeal.RefValue.result_eq _ i

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
